-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x1 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096x1 : Shape := ⟨2, ![4096, 1]⟩
abbrev S4096 : Shape := ⟨1, ![4096]⟩
abbrev S1x4096 : Shape := ⟨2, ![1, 4096]⟩
abbrev S512x4096 : Shape := ⟨2, ![512, 4096]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x1_S512x1_0_0 : ∀ a, (![0, 0] : Fin 2 → Nat) a + S512x1.size a ≤ S512x1.size a
  h_S512x1 : 0 < S512x1.numel
  broadcasts_S1x4096_S512x4096 : S1x4096.Broadcasts S512x4096
  broadcasts_S512x1_S512x4096 : S512x1.Broadcasts S512x4096
  inb_S512x4096_S512x4096_0_0 : ∀ a, (![0, 0] : Fin 2 → Nat) a + S512x4096.size a ≤ S512x4096.size a
  h_S512x4096 : 0 < S512x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .f32 = 32 ∨ (Rect.block (s := S4096x4096) S512x4096.size (cc0_transform_3 i) (hinb0_3 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x1 : Shape := ⟨2, ![4096, 1]⟩
abbrev S4096 : Shape := ⟨1, ![4096]⟩
abbrev S1x4096 : Shape := ⟨2, ![1, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1, .f32⟩
  | .hbm, ⟨2, _⟩ => ⟨S4096, .f32⟩
  | .hbm, ⟨3, _⟩ => ⟨S1x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .i1⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)

variable [Facts₀]

class Facts : Prop extends Facts₀ where

variable [Facts]
-- ==== Proof.Weight.lean ====
/-
  The mathematics of one entry, with no program in sight.

  Both programs compute, for an adjacency entry `a`, its row's threshold `t` and its column's confidence `s`,
      a · mask(w),   mask(w) = w if w ≥ 1, else 0.1,
  where the weight `w` is twice the logistic of `s − t`. They differ only in how `w` is spelt:
    • one multiplies the logistic function's value by the constant 2;
    • the other writes the logistic out as 1 / (1 + e^(−(s − t))) and divides the quotient by the constant 1/2.
  On the extended reals the logistic function IS that quotient (by definition, at the infinities too), and division by
  the nonzero real 1/2 is multiplication by its reciprocal 2 at every extended real, so the two weights are one number
  and, the comparison with 1 and the fallback 0.1 being spelt alike, so are the two entries. No finiteness is needed.

  The whole result is that entry at every index (i, j) of the 4096 × 4096 adjacency: `a` the adjacency's entry (i, j),
  `t` the threshold column's entry (i, 0), `s` the confidence vector's entry j (`reweighted`).
-/
import Idealize.ShloMosaic.PureOps.Ideal
import Idealize.ShloMosaic.Lib.ValueIdx

noncomputable section

namespace Cert.Reweight

open Idealize.ShloMosaic

/-! ## The three constants that are evaluated -/

/-- The binary pattern of `1.0` denotes the number 1. -/
theorem ofBits_one : Ideal.ofBits .f32 0x3F800000#32 = 1 := by
  simp [Ideal.ofBits, Ideal.ieee, -EReal.coe_mul]; norm_num

/-- The binary pattern of `2.0` denotes the real 2. -/
theorem ofBits_two : Ideal.ofBits .f32 0x40000000#32 = ((2 : ℝ) : EReal) := by
  simp [Ideal.ofBits, Ideal.ieee, -EReal.coe_mul]; norm_num

/-- The binary pattern of `0.5` denotes the real 1/2. -/
theorem ofBits_half : Ideal.ofBits .f32 0x3F000000#32 = ((1 / 2 : ℝ) : EReal) := by
  simp [Ideal.ofBits, Ideal.ieee, -EReal.coe_mul]; norm_num

/-! ## One entry, in the two spellings -/

variable {F : FTy → Type} [FloatOps F]

/-- One entry of the result with the weight spelt as the logistic function's value times 2: the adjacency entry `a`
    times the weight `w = 2 · logistic (s − t)` where `w ≥ 1`, times `0.1` elsewhere. -/
def cell (a t s : F .f32) : F .f32 :=
  FloatOps.mulf a (Scalar.select
    (FloatOps.cmpf .oge (FloatOps.mulf (FloatOps.logistic (FloatOps.subf s t)) (Scalar.ofBits .f32 0x40000000#32)) (Scalar.ofBits .f32 0x3F800000#32))
    (FloatOps.mulf (FloatOps.logistic (FloatOps.subf s t)) (Scalar.ofBits .f32 0x40000000#32))
    (Scalar.ofBits .f32 0x3DCCCCCD#32))

/-- The same entry with the weight spelt as the quotient `(1 / (1 + e^(−(s − t)))) / 0.5`. -/
def cellQuot (a t s : F .f32) : F .f32 :=
  FloatOps.mulf a (Scalar.select
    (FloatOps.cmpf .oge (FloatOps.hostDivf (FloatOps.hostDivf (FloatOps.ofBits .f32 0x3F800000#32) (FloatOps.addf (FloatOps.ofBits .f32 0x3F800000#32) (FloatOps.hostUnary .exp (FloatOps.hostNegf (FloatOps.subf s t))))) (FloatOps.ofBits .f32 0x3F000000#32)) (FloatOps.ofBits .f32 0x3F800000#32))
    (FloatOps.hostDivf (FloatOps.hostDivf (FloatOps.ofBits .f32 0x3F800000#32) (FloatOps.addf (FloatOps.ofBits .f32 0x3F800000#32) (FloatOps.hostUnary .exp (FloatOps.hostNegf (FloatOps.subf s t))))) (FloatOps.ofBits .f32 0x3F000000#32))
    (FloatOps.ofBits .f32 0x3DCCCCCD#32))

/-- THE LAW: on the extended reals the quotient `(1 / (1 + e^(−d))) / (1/2)` is `logistic d · 2`, for every `d`,
    infinite or not — the inner quotient is the logistic function by definition, and dividing by the nonzero real 1/2
    multiplies by 2. -/
theorem weight_eq (d : EReal) :
    Ideal.div (Ideal.div (Ideal.ofBits .f32 0x3F800000#32) (Ideal.ofBits .f32 0x3F800000#32 + Ideal.exp (-d))) (Ideal.ofBits .f32 0x3F000000#32)
      = Ideal.logistic d * Ideal.ofBits .f32 0x40000000#32 := by
  rw [ofBits_one, ofBits_half, ofBits_two, Ideal.div_coe (by norm_num), Ideal.logistic]
  norm_num

/-- So the two spellings of an entry agree on the extended reals. -/
theorem cellQuot_eq_cell (a t s : Ideal .f32) : cellQuot (F := Ideal) a t s = cell (F := Ideal) a t s := by
  unfold cellQuot cell
  simp only [Ideal.hostDivf_def, Ideal.ofBits_def, Ideal.addf_def, Ideal.hostUnary_exp_def, Ideal.hostNegf_def,
    Ideal.negf_def, Ideal.subf_def, Ideal.mulf_def, Ideal.logistic_def, weight_eq]

/-! ## The whole array -/

open ValueIdx in
/-- The result array as one function of the three argument arrays: entry (i, j) is `cell` of the adjacency's entry
    (i, j), row i's threshold (the [4096, 1] column at (i, 0)) and column j's confidence (the length-4096 vector at j). -/
def reweighted (adj : (⟨2, ![4096, 4096]⟩ : Shape).Idx → F .f32) (thr : (⟨2, ![4096, 1]⟩ : Shape).Idx → F .f32)
    (conf : (⟨1, ![4096]⟩ : Shape).Idx → F .f32) : (⟨2, ![4096, 4096]⟩ : Shape).Idx → F .f32 :=
  fun i => cell (adj i) (thr (ix2 (⟨(i 0).val, idx2_lt0 i⟩ : Fin 4096) (0 : Fin 1))) (conf (ix1 (⟨(i 1).val, idx2_lt1 i⟩ : Fin 4096)))

end Cert.Reweight

end
-- ==== Proof.RefValue.lean ====
/-
  The reference's result is the reweighted adjacency.

  Read one operation at a time at an index (i, j), the reference's last stage is the adjacency's entry (i, j) times the
  mask of the weight `(1 / (1 + e^(−(s − t)))) / 0.5`, where `s` is the confidence vector read at j (through its two
  broadcasts, first to a row [1, 4096], then down the rows) and `t` the threshold column read at (i, 0) (through its
  broadcast along the columns): the quotient spelling of an entry. On the extended reals that is the product spelling
  (`Cert.Reweight.cellQuot_eq_cell`), so the whole result is `Cert.Reweight.reweighted` of the three arguments.
-/
import proofs.«126546_g20529943675401_fold_wed_c4_352_2_alg».proof.Proof.Gen.ReferenceIdeal.Read
import proofs.«126546_g20529943675401_fold_wed_c4_352_2_alg».proof.Proof.Weight
import Idealize.ShloMosaic.Lib.ValueIdx

noncomputable section

namespace Cert.ReferenceIdeal.Reweighted

open Cert.ReferenceIdeal Cert.ReferenceIdeal.Gen Cert.ReferenceIdeal.Read Idealize.ShloMosaic Idealize.ShloMosaic.TcCoe
open Idealize.ShloMosaic.ValueIdx

/-- Where entry (i, j) reads the threshold column: at (i, 0). -/
theorem thr_idx (i : S4096x4096.Idx) : idx_main_v2 i = ix2 (⟨(i 0).val, idx2_lt0 i⟩ : Fin 4096) (0 : Fin 1) :=
  funext fun a => Fin.ext (by match a with | ⟨0, _⟩ => rfl | ⟨1, _⟩ => rfl)

/-- Where entry (i, j) reads the confidence vector, through the row [1, 4096] it is first broadcast to: at j. -/
theorem conf_idx (i : S4096x4096.Idx) : idx_main_v0 (idx_main_v1 i) = ix1 (⟨(i 1).val, idx2_lt1 i⟩ : Fin 4096) :=
  funext fun a => Fin.ext (by match a with | ⟨0, _⟩ => rfl)

/-- The reference's last stage at an index is the quotient spelling of an entry. -/
theorem stage_apply (x0 : (⟨S4096x4096, .f32⟩ : BufTy).Contents (Elt Ideal)) (x1 : (⟨S4096x1, .f32⟩ : BufTy).Contents (Elt Ideal))
    (x2 : (⟨S4096, .f32⟩ : BufTy).Contents (Elt Ideal)) (i : S4096x4096.Idx) :
    val_main_v15 (F := Ideal) x0 x1 x2 i
      = Cert.Reweight.cellQuot (F := Ideal) (x0 i) (x1 (idx_main_v2 i)) (x2 (idx_main_v0 (idx_main_v1 i))) := by
  rw [val_main_v15_apply, val_main_v14_apply, val_main_v13_apply, val_main_v11_apply, val_main_v9_apply, val_main_v7_apply,
    val_main_v5_apply, val_main_v4_apply, val_main_v3_apply, val_main_v1_apply, val_main_v0_apply, val_main_v2_apply,
    val_main_v6_apply, val_main_v8_apply, val_main_v10_apply, val_main_v12_apply, val_main_call0_v0_apply,
    val_main_cst_apply, val_main_cst_0_apply, val_main_cst_1_apply, val_main_cst_2_apply, val_main_cst_3_apply]
  rfl

/-- THE REFERENCE'S RESULT: the reweighted adjacency, as one function of the three arguments. -/
theorem stage_eq (x0 : (⟨S4096x4096, .f32⟩ : BufTy).Contents (Elt Ideal)) (x1 : (⟨S4096x1, .f32⟩ : BufTy).Contents (Elt Ideal))
    (x2 : (⟨S4096, .f32⟩ : BufTy).Contents (Elt Ideal)) :
    val_main_v15 (F := Ideal) x0 x1 x2 = Cert.Reweight.reweighted (F := Ideal) x0 x1 x2 := by
  funext i
  rw [stage_apply, Cert.Reweight.cellQuot_eq_cell, thr_idx, conf_idx]
  rfl

end Cert.ReferenceIdeal.Reweighted

end
-- ==== Proof.KernelValue.lean ====
/-
  The kernel's result is the reweighted adjacency.

  The kernel sweeps the 4096 × 4096 adjacency in 8 blocks of 512 whole rows. At point `t` it loads the adjacency's rows
  `512 t … 512 t + 511`, those rows' thresholds (a [512, 1] column) and the whole confidence row [1, 4096] — the
  confidence vector, reshaped by the one host operation before the region — and stores, at block index (p, q), the
  adjacency entry (p, q) times the mask of the weight `2 · logistic (confidence (0, q) − threshold (p, 0))`: the product
  spelling of an entry (`Cert.Reweight.cell`). Block index (p, q) of point `t` lies over array index (512 t + p, q), the
  threshold read is the column's entry (512 t + p, 0) and the confidence read the vector's entry q, so what point `t`
  writes back is block `t` of `Cert.Reweight.reweighted` of the three arguments; the 8 row blocks cover the array
  (row `r` is in block `r / 512`), so the result array ends as that function. All of it holds for any float values.
-/
import proofs.«126546_g20529943675401_fold_wed_c4_352_2_alg».proof.Proof.Gen.KernelIdeal.Value
import proofs.«126546_g20529943675401_fold_wed_c4_352_2_alg».proof.Proof.Weight
import Idealize.ShloMosaic.Lib.Pipeline.Value
import Idealize.ShloMosaic.Lib.ValueIdx
import Idealize.ShloMosaic.Lib.StableHlo.Run

noncomputable section

namespace Cert.KernelIdeal.Reweighted

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-! ## What the body leaves in the output block, entry by entry -/

/-- The body's result at block index (p, q), from the three blocks it loads (adjacency rows [512, 4096], their
    thresholds [512, 1], the confidence row [1, 4096]): the entry of the adjacency block at (p, q), of the threshold block at
    (p, 0) and of the confidence row at (0, q). -/
theorem body_apply (x0 : Vec F S512x4096 .f32) (x1 : Vec F S512x1 .f32) (x2 : Vec F S1x4096 .f32) (y : S512x4096.Idx) :
    out0_3 x0 x1 x2 y = Cert.Reweight.cell (x0 y) (x1 (ix2 (⟨(y 0).val, idx2_lt0 y⟩ : Fin 512) (0 : Fin 1)))
      (x2 (ix2 (0 : Fin 1) (⟨(y 1).val, idx2_lt1 y⟩ : Fin 4096))) := by
  have e0 : Value.ix3_0 y = y := funext fun a => Fin.ext (by match a with | ⟨0, _⟩ => rfl | ⟨1, _⟩ => rfl)
  have e1 : Value.ix3_1 y = ix2 (0 : Fin 1) (⟨(y 1).val, idx2_lt1 y⟩ : Fin 4096) :=
    funext fun a => Fin.ext (by match a with | ⟨0, _⟩ => rfl | ⟨1, _⟩ => rfl)
  have e2 : Value.ix3_2 y = ix2 (⟨(y 0).val, idx2_lt0 y⟩ : Fin 512) (0 : Fin 1) :=
    funext fun a => Fin.ext (by match a with | ⟨0, _⟩ => rfl | ⟨1, _⟩ => rfl)
  unfold out0_3
  rw [Value.canon3_eq]
  simp only [View.ld_unit_zero (S := S512x4096) hz, View.ld_unit_zero (S := S1x4096) hz, View.ld_unit_zero (S := S512x1) hz]
  show FloatOps.mulf (x0 (Value.ix3_0 y)) (Scalar.select (FloatOps.cmpf .oge (FloatOps.mulf (FloatOps.logistic (FloatOps.subf (x2 (Value.ix3_1 y)) (x1 (Value.ix3_2 y)))) (Scalar.ofBits .f32 0x40000000#32)) (Scalar.ofBits .f32 0x3F800000#32)) (FloatOps.mulf (FloatOps.logistic (FloatOps.subf (x2 (Value.ix3_1 y)) (x1 (Value.ix3_2 y)))) (Scalar.ofBits .f32 0x40000000#32)) (Scalar.ofBits .f32 0x3DCCCCCD#32)) = _
  rw [e0, e1, e2]
  rfl

/-! ## The three input blocks at a grid point, as entries of the arguments -/

/-- The confidence row the region stages is the confidence vector reshaped to [1, 4096] (the one host operation before the
    region). -/
theorem conf_row (c : Dev nD) : (V m c main_call0_v0 : S1x4096.Idx → Elt F .f32)
    = shapeCast S1x4096 (m ((c : Thread nD τ).loc main_arg2) : S4096.Idx → Elt F .f32) shapeCasts_S4096_S1x4096 := by
  dsimp only [Gen.V, Gen.hostOps0]
  after_results
  rfl

/-- The printed index maps over the 8 grid points: at point `t` the adjacency, the thresholds and the output are at row
    block `t`, column block 0; the confidence row is always block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The adjacency block at point `t` is rows `512 t … 512 t + 511` of the adjacency. -/
theorem adj_block (c : Dev nD) (t : Fin cfg0.N) (j : S512x4096.Idx) (k : S4096x4096.Idx)
    (hk0 : (k 0).val = t.val * 512 + (j 0).val) (hk1 : (k 1).val = (j 1).val) :
    (iblk m c 0 t : Vec F S512x4096 .f32) j = (m ((c : Thread nD τ).loc main_arg0) : S4096x4096.Idx → Elt F .f32) k := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 512 + 1 * (j 0).val = (k 0).val; rw [e0, hk0]; omega
  | ⟨1, _⟩ => show win0_0.index t (1 : Fin 2) * 4096 + 1 * (j 1).val = (k 1).val; rw [e1, hk1]; omega

/-- The threshold block at point `t` is rows `512 t … 512 t + 511` of the threshold column. -/
theorem thr_block (c : Dev nD) (t : Fin cfg0.N) (j : S512x1.Idx) (k : S4096x1.Idx)
    (hk0 : (k 0).val = t.val * 512 + (j 0).val) (hk1 : (k 1).val = (j 1).val) :
    (iblk m c 1 t : Vec F S512x1 .f32) j = (m ((c : Thread nD τ).loc main_arg1) : S4096x1.Idx → Elt F .f32) k := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 512 + 1 * (j 0).val = (k 0).val; rw [e0, hk0]; omega
  | ⟨1, _⟩ => show win0_1.index t (1 : Fin 2) * 1 + 1 * (j 1).val = (k 1).val; rw [e1, hk1]; omega

/-- The confidence block at every point is the whole row, whose entry (0, q) is the confidence vector's entry q. -/
theorem conf_block (c : Dev nD) (t : Fin cfg0.N) (j : S1x4096.Idx) (k : S4096.Idx) (hk : (k 0).val = (j 1).val) :
    (iblk m c 2 t : Vec F S1x4096 .f32) j = (m ((c : Thread nD τ).loc main_arg2) : S4096.Idx → Elt F .f32) k := by
  obtain ⟨-, -, -, -, e0, e1, -⟩ := idx_facts t
  have hj0 : (j 0).val < 1 := idx2_lt0 j
  unfold iblk
  rw [View.read_apply]
  show V m c main_call0_v0 _ = _
  rw [conf_row]
  refine shapeCast_apply _ _ _ k ?_
  rw [Shape.rowMajor_val_one, Shape.rowMajor_val_two, hk]
  show (j 1).val = (win0_2.index t (0 : Fin 2) * 1 + 1 * (j 0).val) * 4096 + (win0_2.index t (1 : Fin 2) * 4096 + 1 * (j 1).val)
  rw [e0, e1]; omega

/-! ## What a point writes back, and the whole array -/

/-- The output block at point `t`, at block index `j` lying over array index `k` (row `512 t + j₀`, column `j₁`), is the
    reweighted adjacency at `k`. -/
theorem point_apply (c : Dev nD) (t : Fin cfg0.N) (j : S512x4096.Idx) (k : S4096x4096.Idx)
    (hk0 : (k 0).val = t.val * 512 + (j 0).val) (hk1 : (k 1).val = (j 1).val) :
    out0_3 (iblk m c 0 t) (iblk m c 1 t) (iblk m c 2 t) j
      = Cert.Reweight.reweighted (m ((c : Thread nD τ).loc main_arg0)) (m ((c : Thread nD τ).loc main_arg1)) (m ((c : Thread nD τ).loc main_arg2)) k := by
  refine (body_apply (iblk m c 0 t) (iblk m c 1 t) (iblk m c 2 t) j).trans ?_
  rw [adj_block m c t j k hk0 hk1,
    thr_block m c t (ix2 (⟨(j 0).val, idx2_lt0 j⟩ : Fin 512) (0 : Fin 1)) (ix2 (⟨(k 0).val, idx2_lt0 k⟩ : Fin 4096) (0 : Fin 1)) hk0 rfl,
    conf_block m c t (ix2 (0 : Fin 1) (⟨(j 1).val, idx2_lt1 j⟩ : Fin 4096)) (ix1 (⟨(k 1).val, idx2_lt1 k⟩ : Fin 4096)) hk1]
  rfl

/-- WHAT POINT `t` WRITES BACK is block `t` of the reweighted adjacency. -/
theorem flushed_eq (c : Dev nD) (t : Fin cfg0.N) :
    (dats m 0 c).flushed 3 t = ((cfg0.win 3).blk t).view.read (Elt F)
      (Cert.Reweight.reweighted (m ((c : Thread nD τ).loc main_arg0)) (m ((c : Thread nD τ).loc main_arg1)) (m ((c : Thread nD τ).loc main_arg2))) := by
  obtain ⟨-, -, -, -, -, -, e0, e1⟩ := idx_facts t
  rw [Value.flushed3]
  funext j
  show out0_3 (iblk m c 0 t) (iblk m c 1 t) (iblk m c 2 t) j
    = Cert.Reweight.reweighted (m ((c : Thread nD τ).loc main_arg0)) (m ((c : Thread nD τ).loc main_arg1)) (m ((c : Thread nD τ).loc main_arg2)) (((cfg0.win 3).blk t).view.emb j)
  refine point_apply m c t j _ ?_ ?_
  · show win0_3.index t (0 : Fin 2) * 512 + 1 * (j 0).val = _; rw [e0]; omega
  · show win0_3.index t (1 : Fin 2) * 4096 + 1 * (j 1).val = _; rw [e1]; omega

/-- An index of the array is in point `t`'s output block iff each coordinate is in the block's range on its axis. -/
theorem mem_blk (t : Fin cfg0.N) (i : S4096x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v0).slice (win0_3.rect t)).set ↔ _
  rw [View.set_slice_whole, Rect.mem_set_unit]
  exact Iff.rfl

/-- The eight row blocks cover the array: row `r` is in the block of point `r / 512`. -/
theorem cover (i : S4096x4096.Idx) : ∃ t : Fin cfg0.N, (cfg0.win 3).flush t = true ∧ i ∈ ((cfg0.win 3).blk t).view.set := by
  have hi0 : (i 0).val < 4096 := idx2_lt0 i
  have hi1 : (i 1).val < 4096 := idx2_lt1 i
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, e0, e1⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; rw [e0, ht]; omega
  | ⟨1, _⟩ => show win0_3.index t (1 : Fin 2) * 4096 ≤ (i 1).val ∧ (i 1).val < win0_3.index t (1 : Fin 2) * 4096 + 4096; rw [e1]; omega

/-- THE RESULT ARRAY after the run is the reweighted adjacency. -/
theorem final (c : Dev nD) : (dats m 0 c).arrAt 3 cfg0.N
    = Cert.Reweight.reweighted (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run, read: the result array is the reweighted adjacency of the arguments, the arguments unchanged. -/
theorem run : θ_run defs (onTc (τ := τ) (main (F := F))) ⟨m, fun _ => 0, ρ⟩ fun r => ∀ c : Dev nD,
      r.2.mem ((c : Thread nD τ).loc main_v0)
        = Cert.Reweight.reweighted (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Reweighted

end
-- ==== Proof.lean ====
/-
  The certificate: a kernel that reweights a dense 4096 × 4096 adjacency against its plain array-program reference.

  Both compute, at (i, j), `adj (i, j) · mask (w)` with `w` twice the logistic of `conf j − thr i`, `mask w = w`
  where `w ≥ 1` and `0.1` elsewhere. The kernel multiplies the logistic function's value by 2; the reference spells the
  logistic as `1 / (1 + e^(−x))` and divides by 0.5. On the extended reals these are one number at every argument,
  finite or not (Proof/Weight.lean), so the precondition is never opened.

  • The three frames: the two kernel programs' are their generated frame runs; the reference has no kernel, and its
    frame is its run with the result forgotten.
  • `preserves`: the idealization rewrote nothing, so there is nothing to state.
  • `algebraic`: the kernel's result array is the reweighted adjacency of its arguments (Proof/KernelValue.lean, block by
    block over the grid), the reference's result is the same function of its own (Proof/RefValue.lean, operation by
    operation at an index), and the two memories agree on the arguments.
-/
import proofs.«126546_g20529943675401_fold_wed_c4_352_2_alg».proof.Defs
import proofs.«126546_g20529943675401_fold_wed_c4_352_2_alg».proof.Proof.Gen.Kernel
import proofs.«126546_g20529943675401_fold_wed_c4_352_2_alg».proof.Proof.Gen.Kernel.Frame
import proofs.«126546_g20529943675401_fold_wed_c4_352_2_alg».proof.Proof.Gen.KernelIdeal
import proofs.«126546_g20529943675401_fold_wed_c4_352_2_alg».proof.Proof.Gen.KernelIdeal.Frame
import proofs.«126546_g20529943675401_fold_wed_c4_352_2_alg».proof.Proof.Gen.KernelIdeal.Value
import proofs.«126546_g20529943675401_fold_wed_c4_352_2_alg».proof.Proof.Gen.ReferenceIdeal
import proofs.«126546_g20529943675401_fold_wed_c4_352_2_alg».proof.Proof.Gen.ReferenceIdeal.Run
import proofs.«126546_g20529943675401_fold_wed_c4_352_2_alg».proof.Proof.Gen.ReferenceIdeal.Read
import proofs.«126546_g20529943675401_fold_wed_c4_352_2_alg».proof.Proof.Gen.Pre_finite_inputs
import proofs.«126546_g20529943675401_fold_wed_c4_352_2_alg».proof.Proof.Weight
import proofs.«126546_g20529943675401_fold_wed_c4_352_2_alg».proof.Proof.RefValue
import proofs.«126546_g20529943675401_fold_wed_c4_352_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the three arguments, both programs end with the reweighted
    adjacency of those arguments as their result. -/
theorem algebraic : Cert.algebraic_KernelIdeal_ReferenceIdeal := by
  intro m ρ m' ρ' _ hagree
  refine ⟨fun c => Cert.Reweight.reweighted (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Reweighted.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Reweighted.stage_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
